-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1000000 : Shape := ⟨1, ![1000000]⟩
abbrev S128x128 : Shape := ⟨2, ![128, 128]⟩
abbrev S128 : Shape := ⟨1, ![128]⟩
abbrev S256x64 : Shape := ⟨2, ![256, 64]⟩
abbrev S64 : Shape := ⟨1, ![64]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S1000000x128 .f32) (main_arg1 : IVec S1000000 32) (main_arg2 : FVec F S128x128 .f32) (main_arg3 : FVec F S128 .f32) (main_arg4 : FVec F S256x64 .f32) (main_arg5 : FVec F S64 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_v13 main_v16
-- ==== Kernel.lean ====
abbrev S1000000x128 : Shape := ⟨2, ![1000000, 128]⟩
abbrev S1000000 : Shape := ⟨1, ![1000000]⟩
abbrev S128x128 : Shape := ⟨2, ![128, 128]⟩
abbrev S128 : Shape := ⟨1, ![128]⟩
abbrev S256x64 : Shape := ⟨2, ![256, 64]⟩
abbrev S64 : Shape := ⟨1, ![64]⟩
abbrev S10000x128 : Shape := ⟨2, ![10000, 128]⟩
abbrev S1x128 : Shape := ⟨2, ![1, 128]⟩
abbrev S_ : Shape := ⟨0, ![]⟩
abbrev S250000x128 : Shape := ⟨2, ![250000, 128]⟩
abbrev S1000000x1 : Shape := ⟨2, ![1000000, 1]⟩
abbrev S128x64 : Shape := ⟨2, ![128, 64]⟩
abbrev S1000000x64 : Shape := ⟨2, ![1000000, 64]⟩
abbrev S10000x64 : Shape := ⟨2, ![10000, 64]⟩
abbrev S1x64 : Shape := ⟨2, ![1, 64]⟩

abbrev nBuf : Space → Nat
  | .hbm => 23
  | .vmem => 15
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S128x128, .f32⟩
  | .hbm, ⟨3, _⟩ => ⟨S128, .f32⟩
  | .hbm, ⟨4, _⟩ => ⟨S256x64, .f32⟩
  | .hbm, ⟨5, _⟩ => ⟨S64, .f32⟩
  | .hbm, ⟨6, _⟩ => ⟨S1000000x128, .f32⟩
  | .hbm, ⟨7, _⟩ => ⟨S_, .f32⟩
  | .hbm, ⟨8, _⟩ => ⟨S250000x128, .f32⟩
  | .hbm, ⟨9, _⟩ => ⟨S1000000x1, .i32⟩
  | .hbm, ⟨10, _⟩ => ⟨S250000x128, .f32⟩
  | .hbm, ⟨11, _⟩ => ⟨S_, .i32⟩
  | .hbm, ⟨12, _⟩ => ⟨S1000000, .i32⟩
  | .hbm, ⟨13, _⟩ => ⟨S1000000, .i1⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S1000000, .i32⟩
  | .hbm, ⟨18, _⟩ => ⟨S1000000x1, .i32⟩
  | .hbm, ⟨19, _⟩ => ⟨S1000000x128, .f32⟩
  | .hbm, ⟨20, _⟩ => ⟨S128x64, .f32⟩
  | .hbm, ⟨21, _⟩ => ⟨S128x64, .f32⟩
  | .hbm, ⟨22, _⟩ => ⟨S1000000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S128x64, .f32⟩
  | .local _ .vmem, ⟨11, _⟩ => ⟨S128x64, .f32⟩
  | .local _ .vmem, ⟨12, _⟩ => ⟨S64, .f32⟩
  | .local _ .vmem, ⟨13, _⟩ => ⟨S10000x64, .f32⟩
  | .local _ .vmem, ⟨14, _⟩ => ⟨S10000x64, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  bcast_S_S250000x128 : S_.BroadcastsInDim S250000x128 (![] : Fin 0 → Fin S250000x128.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  slices_S256x64_S128x64_0_0 : S256x64.Slices ![0, 0] S128x64
  slices_S256x64_S128x64_128_0 : S256x64.Slices ![128, 0] S128x64
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  dot_S10000x128_S128x128_S10000x128_1_0_0_1_n_n_wf : DotDims.WF S10000x128 S128x128 S10000x128 [1] [0] [0] [1] [] []
  scatter_S250000x128_S1000000x1_S1000000x128_1_0_0_1_wf : ScatterDims.WF S250000x128 S1000000x1 S1000000x128 [1] [0] [0] 1
  gather_S250000x128_S1000000x1_S1000000x128_1_0_n_n_0_1_1128_wf : GatherDims.WF S250000x128 S1000000x1 S1000000x128 [1] [0] [] [0] [] 1 ![1, 128]
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S1000000x128.size a
  hwx0_0 : ∀ i : grid0.Coords, EltTy.bits .f32 = 32 ∨ (Rect.block (s := S1000000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S1000000x128.size a
  hwx0_3 : ∀ i : grid0.Coords, EltTy.bits .f32 = 32 ∨ (Rect.block (s := S1000000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S1000000x128.size a
  hwx1_0 : ∀ i : grid1.Coords, EltTy.bits .f32 = 32 ∨ (Rect.block (s := S1000000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S1000000x128.size a
  hwx1_1 : ∀ i : grid1.Coords, EltTy.bits .f32 = 32 ∨ (Rect.block (s := S1000000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S1000000x64.size a
  hwx1_5 : ∀ i : grid1.Coords, EltTy.bits .f32 = 32 ∨ (Rect.block (s := S1000000x64) S10000x64.size (cc1_transform_5 i) (hinb1_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S250000x128_S1000000x1_S1000000x128_1_0_0_1 : ScatterDims S250000x128 S1000000x1 S1000000x128 where
  updateWindowDims := [1]
  insertedWindowDims := [0]
  scatterDimsToOperandDims := [0]
  indexVectorDim := 1
  wf := scatter_S250000x128_S1000000x1_S1000000x128_1_0_0_1_wf
def gather_S250000x128_S1000000x1_S1000000x128_1_0_n_n_0_1_1128 : GatherDims S250000x128 S1000000x1 S1000000x128 where
  offsetDims := [1]
  collapsedSliceDims := [0]
  operandBatchingDims := []
  startIndicesBatchingDims := []
  startIndexMap := [0]
  indexVectorDim := 1
  sliceSizes := ![1, 128]
  wf := gather_S250000x128_S1000000x1_S1000000x128_1_0_n_n_0_1_1128_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S1000000x128 : Shape := ⟨2, ![1000000, 128]⟩
abbrev S1000000 : Shape := ⟨1, ![1000000]⟩
abbrev S128x128 : Shape := ⟨2, ![128, 128]⟩
abbrev S128 : Shape := ⟨1, ![128]⟩
abbrev S256x64 : Shape := ⟨2, ![256, 64]⟩
abbrev S64 : Shape := ⟨1, ![64]⟩
abbrev S1x128 : Shape := ⟨2, ![1, 128]⟩
abbrev S_ : Shape := ⟨0, ![]⟩
abbrev S250000x128 : Shape := ⟨2, ![250000, 128]⟩
abbrev S1000000x1 : Shape := ⟨2, ![1000000, 1]⟩
abbrev S1000000x256 : Shape := ⟨2, ![1000000, 256]⟩
abbrev S1000000x64 : Shape := ⟨2, ![1000000, 64]⟩
abbrev S1x64 : Shape := ⟨2, ![1, 64]⟩

abbrev nBuf : Space → Nat
  | .hbm => 32
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S128x128, .f32⟩
  | .hbm, ⟨3, _⟩ => ⟨S128, .f32⟩
  | .hbm, ⟨4, _⟩ => ⟨S256x64, .f32⟩
  | .hbm, ⟨5, _⟩ => ⟨S64, .f32⟩
  | .hbm, ⟨6, _⟩ => ⟨S1000000x128, .f32⟩
  | .hbm, ⟨7, _⟩ => ⟨S1x128, .f32⟩
  | .hbm, ⟨8, _⟩ => ⟨S1000000x128, .f32⟩
  | .hbm, ⟨9, _⟩ => ⟨S1000000x128, .f32⟩
  | .hbm, ⟨10, _⟩ => ⟨S_, .f32⟩
  | .hbm, ⟨11, _⟩ => ⟨S1000000x128, .f32⟩
  | .hbm, ⟨12, _⟩ => ⟨S1000000x128, .f32⟩
  | .hbm, ⟨13, _⟩ => ⟨S_, .f32⟩
  | .hbm, ⟨14, _⟩ => ⟨S250000x128, .f32⟩
  | .hbm, ⟨15, _⟩ => ⟨S1000000x1, .i32⟩
  | .hbm, ⟨16, _⟩ => ⟨S250000x128, .f32⟩
  | .hbm, ⟨17, _⟩ => ⟨S_, .i32⟩
  | .hbm, ⟨18, _⟩ => ⟨S1000000, .i32⟩
  | .hbm, ⟨19, _⟩ => ⟨S1000000, .i1⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S1000000, .i32⟩
  | .hbm, ⟨24, _⟩ => ⟨S1000000x1, .i32⟩
  | .hbm, ⟨25, _⟩ => ⟨S1000000x128, .f32⟩
  | .hbm, ⟨26, _⟩ => ⟨S1000000x128, .f32⟩
  | .hbm, ⟨27, _⟩ => ⟨S1000000x256, .f32⟩
  | .hbm, ⟨28, _⟩ => ⟨S1000000x64, .f32⟩
  | .hbm, ⟨29, _⟩ => ⟨S1x64, .f32⟩
  | .hbm, ⟨30, _⟩ => ⟨S1000000x64, .f32⟩
  | .hbm, ⟨31, _⟩ => ⟨S1000000x64, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  bcast_S_S250000x128 : S_.BroadcastsInDim S250000x128 (![] : Fin 0 → Fin S250000x128.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  concatenates_S1000000x128_S1000000x128_S1000000x256_d1 : Shape.Concatenates [S1000000x128, S1000000x128] S1000000x256 1
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  dot_S1000000x128_S128x128_S1000000x128_1_0_0_1_n_n_wf : DotDims.WF S1000000x128 S128x128 S1000000x128 [1] [0] [0] [1] [] []
  scatter_S250000x128_S1000000x1_S1000000x128_1_0_0_1_wf : ScatterDims.WF S250000x128 S1000000x1 S1000000x128 [1] [0] [0] 1
  gather_S250000x128_S1000000x1_S1000000x128_1_0_n_n_0_1_1128_wf : GatherDims.WF S250000x128 S1000000x1 S1000000x128 [1] [0] [] [0] [] 1 ![1, 128]
  dot_S1000000x256_S256x64_S1000000x64_1_0_0_1_n_n_wf : DotDims.WF S1000000x256 S256x64 S1000000x64 [1] [0] [0] [1] [] []

variable [Facts₀]

def dot_S1000000x128_S128x128_S1000000x128_1_0_0_1_n_n : DotDims S1000000x128 S128x128 S1000000x128 where
  lhsContracting := [1]
  rhsContracting := [0]
  lhsNonContracting := [0]
  rhsNonContracting := [1]
  lhsBatch := []
  rhsBatch := []
  wf := dot_S1000000x128_S128x128_S1000000x128_1_0_0_1_n_n_wf
def scatter_S250000x128_S1000000x1_S1000000x128_1_0_0_1 : ScatterDims S250000x128 S1000000x1 S1000000x128 where
  updateWindowDims := [1]
  insertedWindowDims := [0]
  scatterDimsToOperandDims := [0]
  indexVectorDim := 1
  wf := scatter_S250000x128_S1000000x1_S1000000x128_1_0_0_1_wf
def gather_S250000x128_S1000000x1_S1000000x128_1_0_n_n_0_1_1128 : GatherDims S250000x128 S1000000x1 S1000000x128 where
  offsetDims := [1]
  collapsedSliceDims := [0]
  operandBatchingDims := []
  startIndicesBatchingDims := []
  startIndexMap := [0]
  indexVectorDim := 1
  sliceSizes := ![1, 128]
  wf := gather_S250000x128_S1000000x1_S1000000x128_1_0_n_n_0_1_1128_wf
def dot_S1000000x256_S256x64_S1000000x64_1_0_0_1_n_n : DotDims S1000000x256 S256x64 S1000000x64 where
  lhsContracting := [1]
  rhsContracting := [0]
  lhsNonContracting := [0]
  rhsNonContracting := [1]
  lhsBatch := []
  rhsBatch := []
  wf := dot_S1000000x256_S256x64_S1000000x64_1_0_0_1_n_n_wf

class Facts : Prop extends Facts₀ where

variable [Facts]
-- ==== Proof.KernelRun.lean ====
/-
  The tiled program's run, with its result buffer read off the last segment boundary.

  The program is three segments: the feature region (100 row tiles), a stretch of plain array operations (the
  per-site sums and their gather back to the rows, and the two halves of the comparator matrix), and the comparator
  region (100 row tiles).  The frame certificate already tracks the contents of every unscoped buffer at each segment
  boundary (`Gen.W0 … Gen.W3`); every weakly fair execution ends with each such buffer at `Gen.W3`.  Here that final
  state is read at the result buffer as well as at the six arguments.
-/
import proofs.«157981_j18219251269838_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the arguments as launched. -/
theorem run_out : θ_run defs (onTc (τ := τ) (main (F := F))) ⟨m, fun _ => 0, ρ⟩ (fun r => ∀ c : Dev nD,
      r.2.mem ((c.tc : Thread nD τ).loc main_v13) = W3 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v13 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.Hand

end
-- ==== Proof.Payloads.lean ====
/-
  What one tile of each region computes, read at an entry, on the extended reals.

  Feature region: the tile holds 10000 rows `x` (128 columns), the whole 128 × 128 matrix `w` and the bias `b`;
  entry `(p, q)` of what it stores is `max (∑ₖ x p k · w k q + b q) 0` — the matrix product accumulates into zero, the
  bias is one row repeated over the tile, the narrowing of the factors to a shorter float format is the identity on
  the extended reals.

  Comparator region: the tile holds 10000 rows of features `f` and of gathered site sums `g`, the two 128 × 64 halves
  `u`, `v` of the comparator matrix and the bias `b`; entry `(p, q)` of what it stores is
  `(∑ₖ f p k · u k q + ∑ₖ (g p k − f p k) · v k q) + b q`.
-/
import proofs.«157981_j18219251269838_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-! ## The two matrix products' operand indices -/

theorem lhsA_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhsA_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhsA_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhsA_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

theorem lhsB_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhsB_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhsB_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhsB_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-! ## The two matrix products, into a zero accumulator, at an entry -/

/-- A 10000 × 128 tile against a 128 × 128 matrix: entry `(p, q)` is `∑ₖ l p k · r k q`. -/
theorem mmA_apply (l : FVec Ideal S10000x128 .bf16) (r : FVec Ideal S128x128 .bf16) (p : Fin 10000) (q : Fin 128) :
    matmul dot_S10000x128_S128x128_S10000x128_1_0_0_1_n_n none l r (constant (F := Ideal) S10000x128 .f32 0x00000000#32) (ix2 p q)
      = ∑ k : Fin 128, l (ix2 p k) * r (ix2 k q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-- A 10000 × 128 tile against a 128 × 64 matrix: entry `(p, q)` is `∑ₖ l p k · r k q`. -/
theorem mmB_apply (l : FVec Ideal S10000x128 .bf16) (r : FVec Ideal S128x64 .bf16) (p : Fin 10000) (q : Fin 64) :
    matmul dot_S10000x128_S128x64_S10000x64_1_0_0_1_n_n none l r (constant (F := Ideal) S10000x64 .f32 0x00000000#32) (ix2 p q)
      = ∑ k : Fin 128, l (ix2 p k) * r (ix2 k q) := by
  simp only [matmul]
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun a => Fin.ext (by
    match a with
    | ⟨0, _⟩ => exact lhsB_0 _ _
    | ⟨1, _⟩ => exact (lhsB_1 _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun a => Fin.ext (by
    match a with
    | ⟨0, _⟩ => exact (rhsB_0 _ _).trans hk
    | ⟨1, _⟩ => exact rhsB_1 _ _)
  rw [el, er]

/-! ## What each tile stores, at an entry -/

/-- The feature tile at `(p, q)`. -/
theorem feat_tile_apply (x : FVec Ideal S10000x128 .f32) (w : FVec Ideal S128x128 .f32) (b : FVec Ideal S128 .f32)
    (p : Fin 10000) (q : Fin 128) :
    k0_pay1 (F := Ideal) x w b (ix2 p q) = max ((∑ k : Fin 128, x (ix2 p k) * w (ix2 k q)) + b (ix1 q)) 0 := by
  unfold k0_pay1
  show max (matmul dot_S10000x128_S128x128_S10000x128_1_0_0_1_n_n none (truncf .bf16 x bitsLt_bf16_f32) (truncf .bf16 w bitsLt_bf16_f32)
        (constant (F := Ideal) S10000x128 .f32 0x00000000#32) (ix2 p q)
      + broadcastTo S10000x128 (shapeCast S1x128 b shapeCasts_S128_S1x128) broadcasts_S1x128_S10000x128 (ix2 p q))
    (Ideal.ofBits .f32 0x00000000#32) = _
  rw [mmA_apply, broadcastTo_1b_ab_apply, shapeCast_a_1a_apply, Ideal.ofBits_zero_f32]
  rfl

/-- The comparator tile at `(p, q)`. -/
theorem cmp_tile_apply (f g : FVec Ideal S10000x128 .f32) (u v : FVec Ideal S128x64 .f32) (b : FVec Ideal S64 .f32)
    (p : Fin 10000) (q : Fin 64) :
    k1_pay1 (F := Ideal) f g u v b (ix2 p q)
      = ((∑ k : Fin 128, f (ix2 p k) * u (ix2 k q)) + ∑ k : Fin 128, (g (ix2 p k) - f (ix2 p k)) * v (ix2 k q)) + b (ix1 q) := by
  unfold k1_pay1
  simp only [shapeCast_self]
  show (matmul dot_S10000x128_S128x64_S10000x64_1_0_0_1_n_n none (truncf .bf16 f bitsLt_bf16_f32) (truncf .bf16 u bitsLt_bf16_f32)
        (constant (F := Ideal) S10000x64 .f32 0x00000000#32) (ix2 p q)
      + matmul dot_S10000x128_S128x64_S10000x64_1_0_0_1_n_n none (truncf .bf16 (subf g f) bitsLt_bf16_f32) (truncf .bf16 v bitsLt_bf16_f32)
        (constant (F := Ideal) S10000x64 .f32 0x00000000#32) (ix2 p q))
      + broadcastTo S10000x64 (shapeCast S1x64 b shapeCasts_S64_S1x64) broadcasts_S1x64_S10000x64 (ix2 p q) = _
  rw [mmB_apply, mmB_apply, broadcastTo_1b_ab_apply, shapeCast_a_1a_apply]
  rfl

end Cert.KernelIdeal.Hand

end
-- ==== Proof.Spec.lean ====
/-
  The mathematics both programs compute, stated once over plain index functions into the extended reals.

  Every row `p` of the input (one million rows of 128 numbers) is mapped to a feature row
  `feat p q = max (∑ₖ x p k · w0 k q + b0 q) 0`.  Rows are grouped into sites by an integer label; `g` is, for
  each row, the sum of the feature rows of its site (that grouping is the same opaque function of the features on
  both sides, so here `g` is just a second array).  The result row is the comparator layer applied to the
  concatenation `[f p, g p − f p]` (256 numbers) against a 256 × 64 matrix:
  `∑_{k<256} [f p, g p − f p] k · w1 k q + b1 q`.
  Splitting that sum at `k = 128` gives
  `(∑_{k<128} f p k · w1 k q + ∑_{k<128} (g p k − f p k) · w1 (128 + k) q) + b1 q`,
  which is the form in which the tiled program accumulates it.  The split is a regrouping of a finite sum in a
  commutative monoid, so it holds on the extended reals with no finiteness assumption.
-/
import Idealize.ShloMosaic.PureOps.Ideal
import Idealize.ShloMosaic.Lib.ValueIdx
import Mathlib.Algebra.BigOperators.Fin

noncomputable section

namespace Cert.SiteSpec

open Idealize.ShloMosaic Idealize.ShloMosaic.ValueIdx

/-- Column `k` of the first half of the 256 comparator inputs. -/
def loK (k : Fin 128) : Fin 256 := ⟨k.val, by have := k.isLt; omega⟩
/-- Column `128 + k`, of the second half. -/
def hiK (k : Fin 128) : Fin 256 := ⟨128 + k.val, by have := k.isLt; omega⟩

/-- One feature: the affine map of row `p` into column `q`, clipped below at zero. -/
def featAt (x : (⟨2, ![1000000, 128]⟩ : Shape).Idx → EReal) (w : (⟨2, ![128, 128]⟩ : Shape).Idx → EReal)
    (b : (⟨1, ![128]⟩ : Shape).Idx → EReal) (p : Fin 1000000) (q : Fin 128) : EReal :=
  max ((∑ k : Fin 128, x (ix2 p k) * w (ix2 k q)) + b (ix1 q)) 0

/-- The feature array. -/
def feat (x : (⟨2, ![1000000, 128]⟩ : Shape).Idx → EReal) (w : (⟨2, ![128, 128]⟩ : Shape).Idx → EReal)
    (b : (⟨1, ![128]⟩ : Shape).Idx → EReal) : (⟨2, ![1000000, 128]⟩ : Shape).Idx → EReal :=
  fun i => featAt x w b (i 0) (i 1)

/-- One result entry, in the split form: the features against the upper half of the comparator matrix, the
    site-sum-minus-features against the lower half, and the bias. -/
def outAt (f g : (⟨2, ![1000000, 128]⟩ : Shape).Idx → EReal) (w : (⟨2, ![256, 64]⟩ : Shape).Idx → EReal)
    (b : (⟨1, ![64]⟩ : Shape).Idx → EReal) (p : Fin 1000000) (q : Fin 64) : EReal :=
  ((∑ k : Fin 128, f (ix2 p k) * w (ix2 (loK k) q))
    + ∑ k : Fin 128, (g (ix2 p k) - f (ix2 p k)) * w (ix2 (hiK k) q)) + b (ix1 q)

/-- The result array. -/
def out (f g : (⟨2, ![1000000, 128]⟩ : Shape).Idx → EReal) (w : (⟨2, ![256, 64]⟩ : Shape).Idx → EReal)
    (b : (⟨1, ![64]⟩ : Shape).Idx → EReal) : (⟨2, ![1000000, 64]⟩ : Shape).Idx → EReal :=
  fun i => outAt f g w b (i 0) (i 1)

/-- The result array at an entry. -/
theorem out_apply (f g : (⟨2, ![1000000, 128]⟩ : Shape).Idx → EReal) (w : (⟨2, ![256, 64]⟩ : Shape).Idx → EReal)
    (b : (⟨1, ![64]⟩ : Shape).Idx → EReal) (p : Fin 1000000) (q : Fin 64) :
    out f g w b (ix2 p q) = outAt f g w b p q := rfl

/-- The feature array at an entry. -/
theorem feat_apply (x : (⟨2, ![1000000, 128]⟩ : Shape).Idx → EReal) (w : (⟨2, ![128, 128]⟩ : Shape).Idx → EReal)
    (b : (⟨1, ![128]⟩ : Shape).Idx → EReal) (p : Fin 1000000) (q : Fin 128) :
    feat x w b (ix2 p q) = featAt x w b p q := rfl

/-- A sum over 256 columns is the sum over the first 128 plus the sum over the last 128. -/
theorem sum_halves (h : Fin 256 → EReal) :
    ∑ k : Fin 256, h k = (∑ k : Fin 128, h (loK k)) + ∑ k : Fin 128, h (hiK k) :=
  Fin.sum_univ_add (a := 128) (b := 128) h

end Cert.SiteSpec

end
-- ==== Proof.FeatRegion.lean ====
/-
  The feature region, from tiles to the whole array.

  The region runs over 100 grid points; point `t` reads rows `10000·t … 10000·t + 9999` of the input, the whole
  weight matrix and the whole bias, and writes back rows `10000·t … 10000·t + 9999` of the feature array.  So what
  point `t` writes back is block `t` of ONE array, `Cert.SiteSpec.feat` of the three arrays as the region finds
  them, and since the 100 blocks cover all one million rows the array ends holding exactly that.
-/
import proofs.«157981_j18219251269838_1_alg».proof.Proof.Gen.KernelIdeal.Frame
import proofs.«157981_j18219251269838_1_alg».proof.Proof.Payloads
import proofs.«157981_j18219251269838_1_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- Row `p` of tile `t` is row `10000·t + p` of the array. -/
def rowOf (t : Nat) (ht : t < 100) (p : Fin 10000) : Fin 1000000 :=
  ⟨t * 10000 + p.val, by have := p.isLt; omega⟩

theorem lt100_0 (t : Fin cfg0.N) : t.val < 100 := by
  have h : t.val < grid0.N := t.isLt
  rw [N_0] at h; exact h

/-- The printed index maps over the grid: the row-tiled windows sit at block `t`, the others at block 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The input tile at point `t`, entry `(p, k)`, is the input array at row `10000·t + p`. -/
theorem rd0_x (c : Dev nD) (t : Fin cfg0.N) (p : Fin 10000) (k : Fin 128) :
    (iblk0 V c 0 t : S10000x128.Idx → EReal) (ix2 p k)
      = (V c main_arg0 : S1000000x128.Idx → EReal) (ix2 (rowOf t.val (lt100_0 t) p) k) := by
  obtain ⟨e00, e01, -⟩ := idx0 t
  show (V c main_arg0 : S1000000x128.Idx → EReal) (((cfg0.win 0).blk t).view.emb (ix2 p k)) = _
  refine congrArg (V c main_arg0 : S1000000x128.Idx → EReal) (funext fun a => Fin.ext ?_)
  match a with
  | ⟨0, _⟩ => show win0_0.index t (0 : Fin 2) * 10000 + 1 * p.val = t.val * 10000 + p.val; omega
  | ⟨1, _⟩ => show win0_0.index t (1 : Fin 2) * 128 + 1 * k.val = k.val; omega

/-- The weight tile at every point is the whole weight matrix. -/
theorem rd0_w (c : Dev nD) (t : Fin cfg0.N) (k : Fin 128) (q : Fin 128) :
    (iblk0 V c 1 t : S128x128.Idx → EReal) (ix2 k q) = (V c main_arg2 : S128x128.Idx → EReal) (ix2 k q) := by
  obtain ⟨-, -, e10, e11, -⟩ := idx0 t
  show (V c main_arg2 : S128x128.Idx → EReal) (((cfg0.win 1).blk t).view.emb (ix2 k q)) = _
  refine congrArg (V c main_arg2 : S128x128.Idx → EReal) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The bias tile at every point is the whole bias. -/
theorem rd0_b (c : Dev nD) (t : Fin cfg0.N) (q : Fin 128) :
    (iblk0 V c 2 t : S128.Idx → EReal) (ix1 q) = (V c main_arg3 : S128.Idx → EReal) (ix1 q) := by
  obtain ⟨-, -, -, -, e20, -⟩ := idx0 t
  show (V c main_arg3 : S128.Idx → EReal) (((cfg0.win 2).blk t).view.emb (ix1 q)) = _
  refine congrArg (V c main_arg3 : S128.Idx → EReal) (funext fun a => Fin.ext ?_)
  match a with
  | ⟨0, _⟩ => show win0_2.index t (0 : Fin 1) * 128 + 1 * q.val = q.val; omega

/-- Entry `(p, q)` of the output tile at point `t` sits at row `10000·t + p`, column `q` of the feature array. -/
theorem emb0_o (t : Fin cfg0.N) (p : Fin 10000) (q : Fin 128) :
    (((cfg0.win 3).blk t).view.emb (ix2 p q) : S1000000x128.Idx) = ix2 (rowOf t.val (lt100_0 t) p) q := by
  obtain ⟨-, -, -, -, -, e30, e31⟩ := idx0 t
  refine funext fun a => Fin.ext ?_
  match a with
  | ⟨0, _⟩ => show win0_3.index t (0 : Fin 2) * 10000 + 1 * p.val = t.val * 10000 + p.val; omega
  | ⟨1, _⟩ => show win0_3.index t (1 : Fin 2) * 128 + 1 * q.val = q.val; omega

/-- WHAT POINT `t` WRITES BACK is block `t` of the feature array of the arrays as the region finds them. -/
theorem flushed0_eq (c : Dev nD) (t : Fin cfg0.N) :
    (dat0 V c).flushed 3 t = ((cfg0.win 3).blk t).view.read (Elt Ideal)
      (SiteSpec.feat (V c main_arg0) (V c main_arg2) (V c main_arg3)) := by
  show (cfg0.win 3).cut (grid0.coords t) ((dat0 V c).after 3 t) = _
  rw [after0_3]
  unfold out0_3
  rw [View.canon_unit_zero zero2]
  simp only [View.ld_unit_zero (S := S10000x128) zero2, View.ld_unit_zero (S := S128x128) zero2, View.ld_unit_zero (S := S128) zero1]
  refine funext fun (j : S10000x128.Idx) => ?_
  obtain ⟨p, q, rfl⟩ : ∃ (p : Fin 10000) (q : Fin 128), j = ix2 p q := ⟨j 0, j 1, eq_ix2 j⟩
  show k0_pay1 (F := Ideal) (iblk0 V c 0 t) (iblk0 V c 1 t) (iblk0 V c 2 t) (ix2 p q)
    = SiteSpec.feat (V c main_arg0) (V c main_arg2) (V c main_arg3) (((cfg0.win 3).blk t).view.emb (ix2 p q))
  refine (feat_tile_apply _ _ _ p q).trans ?_
  rw [emb0_o]
  show _ = SiteSpec.featAt (V c main_arg0) (V c main_arg2) (V c main_arg3) (rowOf t.val (lt100_0 t) p) q
  unfold SiteSpec.featAt
  simp only [rd0_x, rd0_w, rd0_b]

/-- An index of the feature array is in point `t`'s block iff each coordinate is in the block's range on its axis. -/
theorem mem_blk0 (t : Fin cfg0.N) (i : S1000000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v0).slice (win0_3.rect t)).set ↔ _
  rw [View.set_slice_whole, Rect.mem_set_unit]
  exact Iff.rfl

/-- Every row lies in the block of the point `row / 10000`. -/
theorem cover0 (i : S1000000x128.Idx) :
    ∃ t : Fin cfg0.N, (cfg0.win 3).flush t = true ∧ i ∈ ((cfg0.win 3).blk t).view.set := by
  have hi0 : (i 0).val < 1000000 := (i 0).isLt
  have hi1 : (i 1).val < 128 := (i 1).isLt
  have hN : grid0.N = 100 := N_0
  have ht : (i 0).val / 10000 < cfg0.N := by show _ < grid0.N; rw [hN]; omega
  obtain ⟨-, -, -, -, -, e30, e31⟩ := idx0 ⟨(i 0).val / 10000, ht⟩
  refine ⟨⟨(i 0).val / 10000, ht⟩, flush0_3 _, ?_⟩
  rw [mem_blk0]
  intro a
  match a with
  | ⟨0, _⟩ =>
    show win0_3.index ⟨(i 0).val / 10000, ht⟩ (0 : Fin 2) * 10000 ≤ (i 0).val
      ∧ (i 0).val < win0_3.index ⟨(i 0).val / 10000, ht⟩ (0 : Fin 2) * 10000 + 10000
    rw [e30]; show (i 0).val / 10000 * 10000 ≤ (i 0).val ∧ (i 0).val < (i 0).val / 10000 * 10000 + 10000; omega
  | ⟨1, _⟩ =>
    show win0_3.index ⟨(i 0).val / 10000, ht⟩ (1 : Fin 2) * 128 ≤ (i 1).val
      ∧ (i 1).val < win0_3.index ⟨(i 0).val / 10000, ht⟩ (1 : Fin 2) * 128 + 128
    rw [e31]; omega

/-- THE FEATURE ARRAY after the region: `Cert.SiteSpec.feat` of the input, the weights and the bias as the region finds them. -/
theorem final0 (c : Dev nD) :
    (dat0 V c).arrAt 3 cfg0.N = SiteSpec.feat (V c main_arg0) (V c main_arg2) (V c main_arg3) :=
  (dat0 V c).arrAt_eq_of_cover 3 (SiteSpec.feat (V c main_arg0) (V c main_arg2) (V c main_arg3))
    (fun t _ => flushed0_eq V c t) cover0

end Cert.KernelIdeal.Hand

end
-- ==== Proof.CmpRegion.lean ====
/-
  The comparator region, from tiles to the whole array.

  The region runs over 100 grid points; point `t` reads rows `10000·t … 10000·t + 9999` of the feature array and of
  the gathered site sums, both 128 × 64 halves of the comparator matrix and the bias, and writes back the same rows of
  the result.  The two halves are named here by the 256 × 64 matrix `w` they are cut from: the upper half reads `w` at
  row `k`, the lower at row `128 + k` (`hu`, `hv`).  So what point `t` writes back is block `t` of
  `Cert.SiteSpec.out` of the arrays as the region finds them, and the 100 blocks cover the result.
-/
import proofs.«157981_j18219251269838_1_alg».proof.Proof.Gen.KernelIdeal.Frame
import proofs.«157981_j18219251269838_1_alg».proof.Proof.Payloads
import proofs.«157981_j18219251269838_1_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.SiteSpec (loK hiK)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- Row `p` of tile `t` is row `10000·t + p` of the array. -/
def rowAt (t : Nat) (ht : t < 100) (p : Fin 10000) : Fin 1000000 :=
  ⟨t * 10000 + p.val, by have := p.isLt; omega⟩

theorem lt100_1 (t : Fin cfg1.N) : t.val < 100 := by
  have h : t.val < grid1.N := t.isLt
  rw [N_1] at h; exact h

/-- The printed index maps over the grid: the row-tiled windows sit at block `t`, the others at block 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- The feature tile at point `t`, entry `(p, k)`, is the feature array at row `10000·t + p`. -/
theorem rd1_f (c : Dev nD) (t : Fin cfg1.N) (p : Fin 10000) (k : Fin 128) :
    (iblk1 V c 0 t : S10000x128.Idx → EReal) (ix2 p k)
      = (V c main_v0 : S1000000x128.Idx → EReal) (ix2 (rowAt t.val (lt100_1 t) p) k) := by
  obtain ⟨e00, e01, -⟩ := idx1 t
  show (V c main_v0 : S1000000x128.Idx → EReal) (((cfg1.win 0).blk t).view.emb (ix2 p k)) = _
  refine congrArg (V c main_v0 : S1000000x128.Idx → EReal) (funext fun a => Fin.ext ?_)
  match a with
  | ⟨0, _⟩ => show win1_0.index t (0 : Fin 2) * 10000 + 1 * p.val = t.val * 10000 + p.val; omega
  | ⟨1, _⟩ => show win1_0.index t (1 : Fin 2) * 128 + 1 * k.val = k.val; omega

/-- The site-sum tile at point `t`, entry `(p, k)`, is the gathered array at row `10000·t + p`. -/
theorem rd1_g (c : Dev nD) (t : Fin cfg1.N) (p : Fin 10000) (k : Fin 128) :
    (iblk1 V c 1 t : S10000x128.Idx → EReal) (ix2 p k)
      = (V c main_v10 : S1000000x128.Idx → EReal) (ix2 (rowAt t.val (lt100_1 t) p) k) := by
  obtain ⟨-, -, e10, e11, -⟩ := idx1 t
  show (V c main_v10 : S1000000x128.Idx → EReal) (((cfg1.win 1).blk t).view.emb (ix2 p k)) = _
  refine congrArg (V c main_v10 : S1000000x128.Idx → EReal) (funext fun a => Fin.ext ?_)
  match a with
  | ⟨0, _⟩ => show win1_1.index t (0 : Fin 2) * 10000 + 1 * p.val = t.val * 10000 + p.val; omega
  | ⟨1, _⟩ => show win1_1.index t (1 : Fin 2) * 128 + 1 * k.val = k.val; omega

/-- The upper-half tile at every point is the whole upper half. -/
theorem rd1_u (c : Dev nD) (t : Fin cfg1.N) (k : Fin 128) (q : Fin 64) :
    (iblk1 V c 2 t : S128x64.Idx → EReal) (ix2 k q) = (V c main_v11 : S128x64.Idx → EReal) (ix2 k q) := by
  obtain ⟨-, -, -, -, e20, e21, -⟩ := idx1 t
  show (V c main_v11 : S128x64.Idx → EReal) (((cfg1.win 2).blk t).view.emb (ix2 k q)) = _
  refine congrArg (V c main_v11 : S128x64.Idx → EReal) (funext fun a => Fin.ext ?_)
  match a with
  | ⟨0, _⟩ => show win1_2.index t (0 : Fin 2) * 128 + 1 * k.val = k.val; omega
  | ⟨1, _⟩ => show win1_2.index t (1 : Fin 2) * 64 + 1 * q.val = q.val; omega

/-- The lower-half tile at every point is the whole lower half. -/
theorem rd1_v (c : Dev nD) (t : Fin cfg1.N) (k : Fin 128) (q : Fin 64) :
    (iblk1 V c 3 t : S128x64.Idx → EReal) (ix2 k q) = (V c main_v12 : S128x64.Idx → EReal) (ix2 k q) := by
  obtain ⟨-, -, -, -, -, -, e30, e31, -⟩ := idx1 t
  show (V c main_v12 : S128x64.Idx → EReal) (((cfg1.win 3).blk t).view.emb (ix2 k q)) = _
  refine congrArg (V c main_v12 : S128x64.Idx → EReal) (funext fun a => Fin.ext ?_)
  match a with
  | ⟨0, _⟩ => show win1_3.index t (0 : Fin 2) * 128 + 1 * k.val = k.val; omega
  | ⟨1, _⟩ => show win1_3.index t (1 : Fin 2) * 64 + 1 * q.val = q.val; omega

/-- The bias tile at every point is the whole bias. -/
theorem rd1_b (c : Dev nD) (t : Fin cfg1.N) (q : Fin 64) :
    (iblk1 V c 4 t : S64.Idx → EReal) (ix1 q) = (V c main_arg5 : S64.Idx → EReal) (ix1 q) := by
  obtain ⟨-, -, -, -, -, -, -, -, e40, -⟩ := idx1 t
  show (V c main_arg5 : S64.Idx → EReal) (((cfg1.win 4).blk t).view.emb (ix1 q)) = _
  refine congrArg (V c main_arg5 : S64.Idx → EReal) (funext fun a => Fin.ext ?_)
  match a with
  | ⟨0, _⟩ => show win1_4.index t (0 : Fin 1) * 64 + 1 * q.val = q.val; omega

/-- Entry `(p, q)` of the output tile at point `t` sits at row `10000·t + p`, column `q` of the result. -/
theorem emb1_o (t : Fin cfg1.N) (p : Fin 10000) (q : Fin 64) :
    (((cfg1.win 5).blk t).view.emb (ix2 p q) : S1000000x64.Idx) = ix2 (rowAt t.val (lt100_1 t) p) q := by
  obtain ⟨-, -, -, -, -, -, -, -, -, e50, e51⟩ := idx1 t
  refine funext fun a => Fin.ext ?_
  match a with
  | ⟨0, _⟩ => show win1_5.index t (0 : Fin 2) * 10000 + 1 * p.val = t.val * 10000 + p.val; omega
  | ⟨1, _⟩ => show win1_5.index t (1 : Fin 2) * 64 + 1 * q.val = q.val; omega

section
variable (w : (⟨2, ![256, 64]⟩ : Shape).Idx → EReal) (c : Dev nD)
variable (hu : ∀ (k : Fin 128) (q : Fin 64), (V c main_v11 : S128x64.Idx → EReal) (ix2 k q) = w (ix2 (loK k) q))
variable (hv : ∀ (k : Fin 128) (q : Fin 64), (V c main_v12 : S128x64.Idx → EReal) (ix2 k q) = w (ix2 (hiK k) q))

include hu hv in
/-- WHAT POINT `t` WRITES BACK is block `t` of the result array of the arrays as the region finds them. -/
theorem flushed1_eq (t : Fin cfg1.N) :
    (dat1 V c).flushed 5 t = ((cfg1.win 5).blk t).view.read (Elt Ideal)
      (SiteSpec.out (V c main_v0) (V c main_v10) w (V c main_arg5)) := by
  show (cfg1.win 5).cut (grid1.coords t) ((dat1 V c).after 5 t) = _
  rw [after1_5]
  unfold out1_5
  rw [View.canon_unit_zero zeros2]
  simp only [View.ld_unit_zero (S := S10000x128) zeros2, View.ld_unit_zero (S := S128x64) zeros2, View.ld_unit_zero (S := S64) zeros1]
  refine funext fun (j : S10000x64.Idx) => ?_
  obtain ⟨p, q, rfl⟩ : ∃ (p : Fin 10000) (q : Fin 64), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = SiteSpec.out (V c main_v0) (V c main_v10) w (V c main_arg5) (((cfg1.win 5).blk t).view.emb (ix2 p q))
  refine (cmp_tile_apply _ _ _ _ _ p q).trans ?_
  rw [emb1_o]
  show _ = SiteSpec.outAt (V c main_v0) (V c main_v10) w (V c main_arg5) (rowAt t.val (lt100_1 t) p) q
  unfold SiteSpec.outAt
  simp only [rd1_f, rd1_g, rd1_u, rd1_v, rd1_b, hu, hv]

end

/-- An index of the result array is in point `t`'s block iff each coordinate is in the block's range on its axis. -/
theorem mem_blk1 (t : Fin cfg1.N) (i : S1000000x64.Idx) :
    i ∈ ((cfg1.win 5).blk t).view.set ↔ ∀ a : Fin 2, win1_5.index t a * S10000x64.size a ≤ (i a).val
      ∧ (i a).val < win1_5.index t a * S10000x64.size a + S10000x64.size a := by
  show i ∈ ((View.whole main_v13).slice (win1_5.rect t)).set ↔ _
  rw [View.set_slice_whole, Rect.mem_set_unit]
  exact Iff.rfl

/-- Every row lies in the block of the point `row / 10000`. -/
theorem cover1 (i : S1000000x64.Idx) :
    ∃ t : Fin cfg1.N, (cfg1.win 5).flush t = true ∧ i ∈ ((cfg1.win 5).blk t).view.set := by
  have hi0 : (i 0).val < 1000000 := (i 0).isLt
  have hi1 : (i 1).val < 64 := (i 1).isLt
  have hN : grid1.N = 100 := N_1
  have ht : (i 0).val / 10000 < cfg1.N := by show _ < grid1.N; rw [hN]; omega
  obtain ⟨-, -, -, -, -, -, -, -, -, e50, e51⟩ := idx1 ⟨(i 0).val / 10000, ht⟩
  refine ⟨⟨(i 0).val / 10000, ht⟩, flush1_5 _, ?_⟩
  rw [mem_blk1]
  intro a
  match a with
  | ⟨0, _⟩ =>
    show win1_5.index ⟨(i 0).val / 10000, ht⟩ (0 : Fin 2) * 10000 ≤ (i 0).val
      ∧ (i 0).val < win1_5.index ⟨(i 0).val / 10000, ht⟩ (0 : Fin 2) * 10000 + 10000
    rw [e50]; show (i 0).val / 10000 * 10000 ≤ (i 0).val ∧ (i 0).val < (i 0).val / 10000 * 10000 + 10000; omega
  | ⟨1, _⟩ =>
    show win1_5.index ⟨(i 0).val / 10000, ht⟩ (1 : Fin 2) * 64 ≤ (i 1).val
      ∧ (i 1).val < win1_5.index ⟨(i 0).val / 10000, ht⟩ (1 : Fin 2) * 64 + 64
    rw [e51]; omega

/-- THE RESULT ARRAY after the region: `Cert.SiteSpec.out` of the features, the gathered site sums, the comparator matrix
    the two halves are cut from, and the bias, as the region finds them. -/
theorem final1 (w : (⟨2, ![256, 64]⟩ : Shape).Idx → EReal) (c : Dev nD)
    (hu : ∀ (k : Fin 128) (q : Fin 64), (V c main_v11 : S128x64.Idx → EReal) (ix2 k q) = w (ix2 (loK k) q))
    (hv : ∀ (k : Fin 128) (q : Fin 64), (V c main_v12 : S128x64.Idx → EReal) (ix2 k q) = w (ix2 (hiK k) q)) :
    (dat1 V c).arrAt 5 cfg1.N = SiteSpec.out (V c main_v0) (V c main_v10) w (V c main_arg5) :=
  (dat1 V c).arrAt_eq_of_cover 5 (SiteSpec.out (V c main_v0) (V c main_v10) w (V c main_arg5))
    (fun t _ => flushed1_eq V w c hu hv t) cover1

end Cert.KernelIdeal.Hand

end
-- ==== Proof.HostGlue.lean ====
/-
  Between the two regions: the plain array operations, read at the buffers the comparator region stages.

  From the contents at the feature region's exit (`Gen.W1`) the stretch computes the per-site sums of the feature rows
  (a scatter-add into zeros by the row labels) and gathers them back to the rows (the labels, negative ones shifted by the
  number of sites) — kept here as ONE function `siteGather` of the labels and the feature array, never opened —, and cuts
  the comparator matrix into its upper and lower 128 rows.  The feature array and the bias pass through unwritten.
-/
import proofs.«157981_j18219251269838_1_alg».proof.Proof.Gen.KernelIdeal.Frame
import proofs.«157981_j18219251269838_1_alg».proof.Proof.Spec
import Idealize.ShloMosaic.Lib.StableHlo.Run
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx Idealize.ShloMosaic.StableHlo
open Cert.SiteSpec (loK hiK)

variable {F : FTy → Type} [FloatOps F]

/-- The per-site sums of the rows of `f`, gathered back to the rows by the labels `idx`. -/
def siteGather (idx : (⟨S1000000, .i32⟩ : BufTy).Contents (Elt F)) (f : (⟨S1000000x128, .f32⟩ : BufTy).Contents (Elt F)) :
    (⟨S1000000x128, .f32⟩ : BufTy).Contents (Elt F) :=
  Host.gather gather_S250000x128_S1000000x1_S1000000x128_1_0_n_n_0_1_1128
    (Host.scatterAdd scatter_S250000x128_S1000000x1_S1000000x128_1_0_0_1
      (broadcastInDim S250000x128 ![] bcast_S_S250000x128 (constant (F := F) S_ .f32 0x00000000#32))
      (broadcastInDim S1000000x1 ![0] bcast_S1000000_S1000000x1_0 idx) f)
    (broadcastInDim S1000000x1 ![0] bcast_S1000000_S1000000x1_0
      (select (cmpi .slt idx (broadcastInDim S1000000 ![] bcast_S_S1000000 (constantI S_ 32 0#32)))
        (addi idx (broadcastInDim S1000000 ![] bcast_S_S1000000 (constantI S_ 32 250000#32))) idx))

variable (m : (ℓ : Loc nD τ sig) → Buf (Elt F) ℓ) (ρ : Dev nD → PrngReg)

/-- The labels, the comparator matrix and its bias are as launched when the stretch starts: the feature region writes none. -/
theorem W1_arg1 (c : Dev nD) : W1 m ρ c (Proc.devRef .tc main_arg1) = m ((c : Thread nD τ).loc main_arg1) :=
  W1_of_ne m ρ c main_arg1 (by decide)
theorem W1_arg4 (c : Dev nD) : W1 m ρ c (Proc.devRef .tc main_arg4) = m ((c : Thread nD τ).loc main_arg4) :=
  W1_of_ne m ρ c main_arg4 (by decide)
theorem W1_arg5 (c : Dev nD) : W1 m ρ c (Proc.devRef .tc main_arg5) = m ((c : Thread nD τ).loc main_arg5) :=
  W1_of_ne m ρ c main_arg5 (by decide)

/-- The gathered site sums the comparator region finds. -/
theorem V2_gathered (c : Dev nD) :
    V2 m ρ c main_v10 = siteGather (m ((c : Thread nD τ).loc main_arg1)) (V1 m ρ c main_v0) := by
  show StableHlo.after hostOps1 (W1 m ρ c) (Proc.devRef .tc main_v10) = _
  after_results
  rw [W1_arg1]
  rfl

/-- The feature array the comparator region finds is the one the feature region left. -/
theorem V2_features (c : Dev nD) : V2 m ρ c main_v0 = V1 m ρ c main_v0 := by
  show StableHlo.after hostOps1 (W1 m ρ c) (Proc.devRef .tc main_v0) = _
  after_results

/-- The bias the comparator region finds is the launch's. -/
theorem V2_bias (c : Dev nD) : V2 m ρ c main_arg5 = m ((c : Thread nD τ).loc main_arg5) := by
  show StableHlo.after hostOps1 (W1 m ρ c) (Proc.devRef .tc main_arg5) = _
  after_results
  exact W1_arg5 m ρ c

/-- The upper half the comparator region finds: rows `0 … 127` of the launch's comparator matrix. -/
theorem V2_upper (c : Dev nD) :
    V2 m ρ c main_v11 = extractStridedSlice S128x64 ![0, 0] (m ((c : Thread nD τ).loc main_arg4)) slices_S256x64_S128x64_0_0 := by
  show StableHlo.after hostOps1 (W1 m ρ c) (Proc.devRef .tc main_v11) = _
  after_results
  rw [W1_arg4]

/-- The lower half: rows `128 … 255`. -/
theorem V2_lower (c : Dev nD) :
    V2 m ρ c main_v12 = extractStridedSlice S128x64 ![128, 0] (m ((c : Thread nD τ).loc main_arg4)) slices_S256x64_S128x64_128_0 := by
  show StableHlo.after hostOps1 (W1 m ρ c) (Proc.devRef .tc main_v12) = _
  after_results
  rw [W1_arg4]

/-- Entry `(k, q)` of the upper half is entry `(k, q)` of the matrix. -/
theorem upper_apply (c : Dev nD) (k : Fin 128) (q : Fin 64) :
    (V2 m ρ c main_v11 : S128x64.Idx → Elt F .f32) (ix2 k q)
      = (m ((c : Thread nD τ).loc main_arg4) : S256x64.Idx → Elt F .f32) (ix2 (loK k) q) := by
  rw [V2_upper]
  exact ValueIdx.slice2_axis0_apply 0 _ slices_S256x64_S128x64_0_0 k q (loK k) (Nat.zero_add _).symm

/-- Entry `(k, q)` of the lower half is entry `(128 + k, q)` of the matrix. -/
theorem lower_apply (c : Dev nD) (k : Fin 128) (q : Fin 64) :
    (V2 m ρ c main_v12 : S128x64.Idx → Elt F .f32) (ix2 k q)
      = (m ((c : Thread nD τ).loc main_arg4) : S256x64.Idx → Elt F .f32) (ix2 (hiK k) q) := by
  rw [V2_lower]
  exact ValueIdx.slice2_axis0_apply 128 _ slices_S256x64_S128x64_128_0 k q (hiK k) rfl

end Cert.KernelIdeal.Hand

end
-- ==== Proof.KernelValue.lean ====
/-
  The tiled program's result as one function of its arguments.

  Reading the segment boundaries back to the launch: the feature region leaves `feat x w0 b0` in the feature array; the
  stretch of array operations leaves `siteGather labels (feat x w0 b0)` in the gathered array, the two halves of `w1`, and
  passes the features and the bias `b1` through; the comparator region leaves
  `out (feat x w0 b0) (siteGather labels (feat x w0 b0)) w1 b1` in the result.
-/
import proofs.«157981_j18219251269838_1_alg».proof.Proof.KernelRun
import proofs.«157981_j18219251269838_1_alg».proof.Proof.FeatRegion
import proofs.«157981_j18219251269838_1_alg».proof.Proof.CmpRegion
import proofs.«157981_j18219251269838_1_alg».proof.Proof.HostGlue

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The feature array of the launch's input, weights and bias. -/
abbrev features (c : Dev nD) : (⟨2, ![1000000, 128]⟩ : Shape).Idx → EReal :=
  SiteSpec.feat (m ((c : Thread nD τ).loc main_arg0)) (m ((c : Thread nD τ).loc main_arg2)) (m ((c : Thread nD τ).loc main_arg3))

/-- The result array as a function of the launch's arguments. -/
abbrev result (c : Dev nD) : (⟨2, ![1000000, 64]⟩ : Shape).Idx → EReal :=
  SiteSpec.out (features m c) (siteGather (F := Ideal) (m ((c : Thread nD τ).loc main_arg1)) (features m c))
    (m ((c : Thread nD τ).loc main_arg4)) (m ((c : Thread nD τ).loc main_arg5))

/-- At the feature region's exit the feature array holds `features`. -/
theorem features_eq (c : Dev nD) : V1 m ρ c main_v0 = features m c :=
  (W1_arr m ρ c 3).trans (final0 (V0 m ρ) c)

/-- At the comparator region's exit the result array holds `result`. -/
theorem result_eq (c : Dev nD) : W3 m ρ c (Proc.devRef .tc main_v13) = result m c := by
  refine (W3_arr m ρ c 5).trans ?_
  rw [final1 (V2 m ρ) (m ((c : Thread nD τ).loc main_arg4)) c (upper_apply m ρ c) (lower_apply m ρ c),
    V2_features, V2_gathered, V2_bias, features_eq]

/-- Every weakly fair execution terminates, nothing faulting, with the result buffer at `result` of the arguments and the
    arguments unchanged. -/
theorem run : θ_run defs (onTc (τ := τ) (main (F := Ideal))) ⟨m, fun _ => 0, ρ⟩ (fun r => ∀ c : Dev nD,
      r.2.mem ((c.tc : Thread nD τ).loc main_v13) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (run_out m ρ)

end Cert.KernelIdeal.Hand

end
-- ==== Proof.RefValue.lean ====
/-
  The plain program's result, read index by index.

  Its stages are: the affine map and the clip at zero (the feature array); the per-site sums gathered back to the
  rows (kept as one opaque stage of the features and the labels); the concatenation of the features with the
  site-sum-minus-features along the columns; the product with the 256 × 64 comparator matrix; the bias.
  An entry of the concatenation at column `k < 128` is the feature, at column `128 + k` the difference, so the
  256-term product sum splits at 128 into the two 128-term sums of `Cert.SiteSpec.outAt`.
-/
import proofs.«157981_j18219251269838_1_alg».proof.Proof.Gen.ReferenceIdeal.Read
import proofs.«157981_j18219251269838_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.SiteSpec

/-- The clipped affine stage is the feature array: entry `(p, q)` is `max (∑ₖ x p k · w k q + b q) 0`. -/
theorem feat_eq (x0 : (⟨S1000000x128, .f32⟩ : BufTy).Contents (Elt Ideal)) (x2 : (⟨S128x128, .f32⟩ : BufTy).Contents (Elt Ideal))
    (x3 : (⟨S128, .f32⟩ : BufTy).Contents (Elt Ideal)) :
    val_main_v4 (F := Ideal) x0 x2 x3 = feat x0 x2 x3 := by
  funext i
  obtain ⟨p, q, rfl⟩ : ∃ (p : Fin 1000000) (q : Fin 128), i = ix2 p q := ⟨i 0, i 1, eq_ix2 i⟩
  rw [val_main_v4_apply, val_main_v3_apply, val_main_v0_apply, val_main_v2_apply, val_main_v1_apply,
    val_main_call0_v0_apply, val_main_call0_cst_apply]
  have e1 : ∀ k : Fin 128, lidx_main_v0 (ix2 p q) k = ix2 p k := fun k =>
    funext fun a => Fin.ext (by match a with | ⟨0, _⟩ => rfl | ⟨1, _⟩ => rfl)
  have e2 : ∀ k : Fin 128, ridx_main_v0 (ix2 p q) k = ix2 k q := fun k =>
    funext fun a => Fin.ext (by match a with | ⟨0, _⟩ => rfl | ⟨1, _⟩ => rfl)
  have e3 : idx_main_v1 (idx_main_v2 (ix2 p q)) = ix1 q :=
    funext fun a => Fin.ext (by match a with | ⟨0, _⟩ => rfl)
  simp only [e1, e2, e3]
  show max (_ + _) (Ideal.ofBits .f32 0x00000000#32) = _
  rw [Ideal.ofBits_zero_f32]
  rfl

/-- An entry of the concatenation in its first 128 columns is the feature. -/
theorem concat_lo (x0 : (⟨S1000000x128, .f32⟩ : BufTy).Contents (Elt Ideal)) (x1 : (⟨S1000000, .i32⟩ : BufTy).Contents (Elt Ideal))
    (x2 : (⟨S128x128, .f32⟩ : BufTy).Contents (Elt Ideal)) (x3 : (⟨S128, .f32⟩ : BufTy).Contents (Elt Ideal))
    (p : Fin 1000000) (q : Fin 64) (k : Fin 128) :
    val_main_v16 (F := Ideal) x0 x1 x2 x3 (lidx_main_v17 (ix2 p q) (loK k)) = val_main_v4 (F := Ideal) x0 x2 x3 (ix2 p k) := by
  unfold val_main_v16
  generalize val_main_v4 (F := Ideal) x0 x2 x3 = a
  generalize val_main_v15 (F := Ideal) x0 x1 x2 x3 = b
  exact concatenate_pair_apply_left (t := S1000000x256) 1 a b concatenates_S1000000x128_S1000000x128_S1000000x256_d1
    (lidx_main_v17 (ix2 p q) (loK k)) rfl (ix2 p k)
    (fun d => by match d with | ⟨0, _⟩ => rfl | ⟨1, _⟩ => rfl)

/-- An entry of the concatenation in its last 128 columns is the site sum minus the feature. -/
theorem concat_hi (x0 : (⟨S1000000x128, .f32⟩ : BufTy).Contents (Elt Ideal)) (x1 : (⟨S1000000, .i32⟩ : BufTy).Contents (Elt Ideal))
    (x2 : (⟨S128x128, .f32⟩ : BufTy).Contents (Elt Ideal)) (x3 : (⟨S128, .f32⟩ : BufTy).Contents (Elt Ideal))
    (p : Fin 1000000) (q : Fin 64) (k : Fin 128) :
    val_main_v16 (F := Ideal) x0 x1 x2 x3 (lidx_main_v17 (ix2 p q) (hiK k)) = val_main_v15 (F := Ideal) x0 x1 x2 x3 (ix2 p k) := by
  unfold val_main_v16
  generalize val_main_v4 (F := Ideal) x0 x2 x3 = a
  generalize val_main_v15 (F := Ideal) x0 x1 x2 x3 = b
  exact concatenate_pair_apply_right (t := S1000000x256) 1 a b concatenates_S1000000x128_S1000000x128_S1000000x256_d1
    (lidx_main_v17 (ix2 p q) (hiK k)) rfl rfl (ix2 p k)
    (fun d hd => by match d with | ⟨0, _⟩ => rfl | ⟨1, _⟩ => exact absurd rfl hd)
    (by show k.val + 128 = 128 + k.val; omega)

/-- The last stage is `Cert.SiteSpec.out` of the feature stage and the gathered site sums: the product sum over the
    256 concatenated columns, split at column 128. -/
theorem out_eq (x0 : (⟨S1000000x128, .f32⟩ : BufTy).Contents (Elt Ideal)) (x1 : (⟨S1000000, .i32⟩ : BufTy).Contents (Elt Ideal))
    (x2 : (⟨S128x128, .f32⟩ : BufTy).Contents (Elt Ideal)) (x3 : (⟨S128, .f32⟩ : BufTy).Contents (Elt Ideal))
    (x4 : (⟨S256x64, .f32⟩ : BufTy).Contents (Elt Ideal)) (x5 : (⟨S64, .f32⟩ : BufTy).Contents (Elt Ideal)) :
    val_main_v20 (F := Ideal) x0 x1 x2 x3 x4 x5
      = out (val_main_v4 (F := Ideal) x0 x2 x3) (val_main_v14 (F := Ideal) x0 x1 x2 x3) x4 x5 := by
  funext i
  obtain ⟨p, q, rfl⟩ : ∃ (p : Fin 1000000) (q : Fin 64), i = ix2 p q := ⟨i 0, i 1, eq_ix2 i⟩
  have eB : idx_main_v18 (idx_main_v19 (ix2 p q)) = ix1 q :=
    funext fun a => Fin.ext (by match a with | ⟨0, _⟩ => rfl)
  rw [val_main_v20_apply, val_main_v17_apply, val_main_v19_apply, val_main_v18_apply, sum_halves, out_apply, eB,
    Ideal.addf_def]
  unfold outAt
  refine congrArg₂ (fun a b : EReal => a + b)
    (congrArg₂ (fun a b : EReal => a + b) (Finset.sum_congr rfl fun k _ => ?_) (Finset.sum_congr rfl fun k _ => ?_)) rfl
  · have eW : ridx_main_v17 (ix2 p q) (loK k) = ix2 (loK k) q :=
      funext fun a => Fin.ext (by match a with | ⟨0, _⟩ => rfl | ⟨1, _⟩ => rfl)
    beta_reduce
    rw [concat_lo, eW]
  · have eW : ridx_main_v17 (ix2 p q) (hiK k) = ix2 (hiK k) q :=
      funext fun a => Fin.ext (by match a with | ⟨0, _⟩ => rfl | ⟨1, _⟩ => rfl)
    beta_reduce
    rw [concat_hi, eW, val_main_v15_apply, Ideal.subf_def]

end Cert.ReferenceIdeal.RefValue

end
-- ==== Proof.Bridge.lean ====
/-
  The per-site sums gathered back to the rows are the same function of the labels and the features in both programs:
  a scatter-add of the feature rows into zeros by label, then a gather by label (negative labels shifted by the number of
  sites).  Neither side opens it; the two spellings differ only in which program's shape records they cite.
-/
import proofs.«157981_j18219251269838_1_alg».proof.Proof.Gen.ReferenceIdeal.Read
import proofs.«157981_j18219251269838_1_alg».proof.Proof.HostGlue

noncomputable section

namespace Cert.Proof.Bridge

open Idealize.ShloMosaic
open Cert.ReferenceIdeal Cert.ReferenceIdeal.Read

/-- The plain program's gathered stage is `siteGather` of the labels and its feature stage. -/
theorem gather_eq (x0 : (⟨S1000000x128, .f32⟩ : BufTy).Contents (Elt Ideal)) (x1 : (⟨S1000000, .i32⟩ : BufTy).Contents (Elt Ideal))
    (x2 : (⟨S128x128, .f32⟩ : BufTy).Contents (Elt Ideal)) (x3 : (⟨S128, .f32⟩ : BufTy).Contents (Elt Ideal)) :
    val_main_v14 (F := Ideal) x0 x1 x2 x3
      = Cert.KernelIdeal.Hand.siteGather (F := Ideal) x1 (val_main_v4 (F := Ideal) x0 x2 x3) := by
  unfold val_main_v14 val_main_v7 val_main_v13 val_main_v12 val_main_v9 val_main_v11 val_main_v8 val_main_v10
    val_main_c val_main_c_0 val_main_v5 val_main_v6 val_main_cst
  generalize val_main_v4 (F := Ideal) x0 x2 x3 = f
  rfl

end Cert.Proof.Bridge

end
-- ==== Proof.lean ====
/-
  Two programs computing a per-row comparator over grouped rows agree on the extended reals.

  Each of one million rows is mapped to 128 features (an affine map clipped at zero); rows carry an integer site
  label, and each row is paired with the sum of the features of its site minus its own; the pair (256 numbers) goes
  through an affine comparator layer to 64 numbers.  The plain program concatenates the pair and multiplies by the
  256 × 64 matrix; the tiled program multiplies the two halves by the two halves of the matrix and adds.  A finite sum
  over 256 columns is the sum over the first 128 plus the sum over the last 128 in any commutative monoid, so the two
  results are the same extended real at every entry, whatever the inputs (no finiteness is used).  The grouping
  (scatter-add by label, gather by label) is the same function of the features on both sides and is never opened.

  The three frame claims: the two tiled programs' are the frame certificates of their two regions and the stretch
  between them; the plain program's is its run with the result dropped.  The idealization rewrote nothing, so
  `preserves` is trivial.
-/
import proofs.«157981_j18219251269838_1_alg».proof.Defs
import proofs.«157981_j18219251269838_1_alg».proof.Proof.Gen.Kernel
import proofs.«157981_j18219251269838_1_alg».proof.Proof.Gen.Kernel.Skeleton
import proofs.«157981_j18219251269838_1_alg».proof.Proof.Gen.Kernel.Launch
import proofs.«157981_j18219251269838_1_alg».proof.Proof.Gen.Kernel.Points
import proofs.«157981_j18219251269838_1_alg».proof.Proof.Gen.Kernel.Frame
import proofs.«157981_j18219251269838_1_alg».proof.Proof.Gen.KernelIdeal
import proofs.«157981_j18219251269838_1_alg».proof.Proof.Gen.KernelIdeal.Skeleton
import proofs.«157981_j18219251269838_1_alg».proof.Proof.Gen.KernelIdeal.Launch
import proofs.«157981_j18219251269838_1_alg».proof.Proof.Gen.KernelIdeal.Points
import proofs.«157981_j18219251269838_1_alg».proof.Proof.Gen.KernelIdeal.Frame
import proofs.«157981_j18219251269838_1_alg».proof.Proof.Gen.ReferenceIdeal
import proofs.«157981_j18219251269838_1_alg».proof.Proof.Gen.ReferenceIdeal.Run
import proofs.«157981_j18219251269838_1_alg».proof.Proof.Gen.ReferenceIdeal.Read
import proofs.«157981_j18219251269838_1_alg».proof.Proof.Gen.Pre_finite_inputs
import proofs.«157981_j18219251269838_1_alg».proof.Proof.KernelValue
import proofs.«157981_j18219251269838_1_alg».proof.Proof.RefValue
import proofs.«157981_j18219251269838_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result buffer at `Cert.SiteSpec.out` of the feature array, the gathered site sums, the
    comparator matrix and its bias, of arguments that agree. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v20_eq, a0, a1, a2, a3, a4, a5, Cert.ReferenceIdeal.RefValue.out_eq,
    Cert.Proof.Bridge.gather_eq, Cert.ReferenceIdeal.RefValue.feat_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
